-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S65536x1024 .f32) (main_arg1 : FVec F S1024 .f32) (main_arg2 : FVec F S1024 .f32) (main_arg3 : FVec F S256x1024 .f32) (main_arg4 : FVec F S256 .f32) (main_arg5 : FVec F S256 .f32) (main_arg6 : FVec F S256 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_v13 main_v16
-- ==== Kernel.lean ====
abbrev S65536x1024 : Shape := ⟨2, ![65536, 1024]⟩
abbrev S1024 : Shape := ⟨1, ![1024]⟩
abbrev S256x1024 : Shape := ⟨2, ![256, 1024]⟩
abbrev S256 : Shape := ⟨1, ![256]⟩
abbrev S1024x256 : Shape := ⟨2, ![1024, 256]⟩
abbrev S65536x256 : Shape := ⟨2, ![65536, 256]⟩
abbrev S2048x1024 : Shape := ⟨2, ![2048, 1024]⟩
abbrev S2048x256 : Shape := ⟨2, ![2048, 256]⟩
abbrev S2048 : Shape := ⟨1, ![2048]⟩
abbrev S2048x1 : Shape := ⟨2, ![2048, 1]⟩
abbrev S1x1024 : Shape := ⟨2, ![1, 1024]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1024x256, .f32⟩
  | .hbm, ⟨8, _⟩ => ⟨S1024x256, .bf16⟩
  | .hbm, ⟨9, _⟩ => ⟨S65536x256, .f32⟩
  | .local _ .vmem, ⟨0, _⟩ => ⟨S2048x1024, .f32⟩
  | .local _ .vmem, ⟨1, _⟩ => ⟨S2048x1024, .f32⟩
  | .local _ .vmem, ⟨2, _⟩ => ⟨S1024, .f32⟩
  | .local _ .vmem, ⟨3, _⟩ => ⟨S1024, .f32⟩
  | .local _ .vmem, ⟨4, _⟩ => ⟨S1024x256, .bf16⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S2048x256, .f32⟩
  | .local _ .vmem, ⟨9, _⟩ => ⟨S2048x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x1024_S1024x256_1_0 : S256x1024.Transposes [1, 0] S1024x256
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  reduces_S2048x256_S2048 : S2048x256.Reduces [1] S2048
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S256x1024 : Shape := ⟨2, ![256, 1024]⟩
abbrev S256 : Shape := ⟨1, ![256]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x256 : Shape := ⟨2, ![65536, 256]⟩
abbrev S1x256 : Shape := ⟨2, ![1, 256]⟩

abbrev nBuf : Space → Nat
  | .hbm => 69
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S65536x256, .f32⟩
  | .hbm, ⟨37, _⟩ => ⟨S1x256, .f32⟩
  | .hbm, ⟨38, _⟩ => ⟨S65536x256, .f32⟩
  | .hbm, ⟨39, _⟩ => ⟨S65536x256, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x256, .f32⟩
  | .hbm, ⟨56, _⟩ => ⟨S65536x256, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x256, .f32⟩
  | .hbm, ⟨62, _⟩ => ⟨S65536x256, .f32⟩
  | .hbm, ⟨63, _⟩ => ⟨S1x256, .f32⟩
  | .hbm, ⟨64, _⟩ => ⟨S65536x256, .f32⟩
  | .hbm, ⟨65, _⟩ => ⟨S65536x256, .f32⟩
  | .hbm, ⟨66, _⟩ => ⟨S1x256, .f32⟩
  | .hbm, ⟨67, _⟩ => ⟨S65536x256, .f32⟩
  | .hbm, ⟨68, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S65536_d1 : S65536x256.ReducesTo [1] S65536
  bcast_S65536x1_S65536x256_0_1 : S65536x1.BroadcastsInDim S65536x256 (![0, 1] : Fin 2 → Fin S65536x256.rank)
  dot_S65536x1024_S256x1024_S65536x256_1_1_0_0_n_n_wf : DotDims.WF S65536x1024 S256x1024 S65536x256 [1] [1] [0] [0] [] []

variable [Facts₀]

def dot_S65536x1024_S256x1024_S65536x256_1_1_0_0_n_n : DotDims S65536x1024 S256x1024 S65536x256 where
  lhsContracting := [1]
  rhsContracting := [1]
  lhsNonContracting := [0]
  rhsNonContracting := [0]
  lhsBatch := []
  rhsBatch := []
  wf := dot_S65536x1024_S256x1024_S65536x256_1_1_0_0_n_n_wf

class Facts : Prop extends Facts₀ where

variable [Facts]
-- ==== Proof.LibRowNorm.lean ====
/-
  Layer normalisation of one row, on the extended reals, in the two arrangements the programs use.

  A row x over a finite index type, a row length N and an offset ε are given. The mean is μ = (∑ x) / N. The
  ONE-PASS variance is (∑ x²) / N − μ²; the TWO-PASS variance is (∑ (x − μ)²) / N. Either way the normalised
  row is (x − μ) · rsqrt(var + ε) · g + b.

  When every entry of x is a real number and N is the real number of entries, ∑ (x − μ)² = ∑ x² − N μ², so the
  two variances are one real number; it is non-negative, so with ε > 0 the reciprocal root is a real number too
  and the normalised row is again a row of reals. That is what lets the argument be repeated after an affine map
  of the row (a product with a real matrix plus a real bias): two normalisations with a projection between them
  agree in the two arrangements.
-/
import Idealize.ShloMosaic.PureOps.Ideal

noncomputable section

open scoped BigOperators

namespace Cert.RowNorm

open Idealize.ShloMosaic

variable {ι κ : Type} [Fintype ι] [Fintype κ]

/-! ## The two arrangements on the extended reals -/

/-- The mean of a row: its sum over the row length. -/
def mean (N : EReal) (x : ι → EReal) : EReal := Ideal.div (∑ j, x j) N

/-- The normalised row with the variance taken in one pass, as the mean of the squares less the square of the mean. -/
def normOne (N ε : EReal) (x g b : ι → EReal) (k : ι) : EReal :=
  (x k - mean N x) * Ideal.rsqrt (Ideal.div (∑ j, x j * x j) N - mean N x * mean N x + ε) * g k + b k

/-- The normalised row with the variance taken in two passes, as the mean of the squared deviations. -/
def normTwo (N ε : EReal) (x g b : ι → EReal) (k : ι) : EReal :=
  (x k - mean N x) * Ideal.rsqrt (Ideal.div (∑ j, (x j - mean N x) * (x j - mean N x)) N + ε) * g k + b k

/-- A row times a matrix (contracted along the row), plus a bias. -/
def affine (x : ι → EReal) (W : κ → ι → EReal) (c : κ → EReal) (p : κ) : EReal := (∑ k, x k * W p k) + c p

/-! ## The same on the reals -/

def rmean (n : ℝ) (x : ι → ℝ) : ℝ := (∑ j, x j) / n

def rnorm (n e : ℝ) (x g b : ι → ℝ) (k : ι) : ℝ :=
  (x k - rmean n x) * (Real.sqrt ((∑ j, (x j - rmean n x) * (x j - rmean n x)) / n + e))⁻¹ * g k + b k

def raffine (x : ι → ℝ) (W : κ → ι → ℝ) (c : κ → ℝ) (p : κ) : ℝ := (∑ k, x k * W p k) + c p

/-- The sum of squared deviations from the mean is the sum of squares less N times the squared mean; divided by N. -/
theorem var_eq (n : ℝ) (hn : n = (Fintype.card ι : ℝ)) (hn0 : n ≠ 0) (x : ι → ℝ) :
    (∑ j, (x j - rmean n x) * (x j - rmean n x)) / n = (∑ j, x j * x j) / n - rmean n x * rmean n x := by
  have hs : ∑ j, x j = n * rmean n x := by unfold rmean; field_simp
  generalize rmean n x = μ at hs ⊢
  have h1 : ∑ j, (x j - μ) * (x j - μ) = ∑ j, x j * x j - 2 * μ * ∑ j, x j + n * (μ * μ) := by
    rw [Finset.mul_sum, ← Finset.sum_sub_distrib, hn, ← nsmul_eq_mul, ← Finset.card_univ, ← Finset.sum_const,
      ← Finset.sum_add_distrib]
    exact Finset.sum_congr rfl fun j _ => by ring
  rw [h1, hs]
  field_simp
  ring

/-- The squared deviations sum to a non-negative number. -/
theorem var_nonneg (n : ℝ) (hn : 0 < n) (x : ι → ℝ) :
    0 ≤ (∑ j, (x j - rmean n x) * (x j - rmean n x)) / n :=
  div_nonneg (Finset.sum_nonneg fun j _ => mul_self_nonneg _) hn.le

/-! ## Real rows give real results -/

theorem coe_sum (s : Finset ι) (x : ι → ℝ) : ((∑ j ∈ s, x j : ℝ) : EReal) = ∑ j ∈ s, (x j : EReal) := by
  classical
  induction s using Finset.induction_on with
  | empty => simp
  | insert a s ha ih => rw [Finset.sum_insert ha, Finset.sum_insert ha, EReal.coe_add, ih]

theorem div_real (a n : ℝ) (hn : n ≠ 0) : Ideal.div (a : EReal) (n : EReal) = ((a / n : ℝ) : EReal) := by
  rw [Ideal.div_coe hn, ← EReal.coe_mul, mul_one_div]

theorem rsqrt_real (r : ℝ) (hr : 0 < r) : Ideal.rsqrt (r : EReal) = (((Real.sqrt r)⁻¹ : ℝ) : EReal) := by
  rw [Ideal.rsqrt_coe, if_neg (not_lt.mpr hr.le), if_neg hr.ne']

theorem mean_coe (n : ℝ) (hn : n ≠ 0) (x : ι → ℝ) : mean (n : EReal) (fun j => (x j : EReal)) = (rmean n x : EReal) := by
  unfold mean rmean
  rw [← coe_sum, div_real _ _ hn]

/-- Two passes over a real row: the real normalisation. -/
theorem normTwo_coe (n e : ℝ) (hn : 0 < n) (he : 0 < e) (x g b : ι → ℝ) (k : ι) :
    normTwo (n : EReal) (e : EReal) (fun j => (x j : EReal)) (fun j => (g j : EReal)) (fun j => (b j : EReal)) k
      = (rnorm n e x g b k : EReal) := by
  unfold normTwo rnorm
  rw [mean_coe n hn.ne' x]
  simp only [← EReal.coe_sub, ← EReal.coe_mul]
  rw [← coe_sum, div_real _ _ hn.ne', ← EReal.coe_add,
    rsqrt_real _ (add_pos_of_nonneg_of_pos (var_nonneg n hn x) he), ← EReal.coe_mul, ← EReal.coe_mul, ← EReal.coe_add]

/-- One pass over a real row whose length is N: the same real normalisation. -/
theorem normOne_coe (n e : ℝ) (hc : n = (Fintype.card ι : ℝ)) (hn : 0 < n) (he : 0 < e) (x g b : ι → ℝ) (k : ι) :
    normOne (n : EReal) (e : EReal) (fun j => (x j : EReal)) (fun j => (g j : EReal)) (fun j => (b j : EReal)) k
      = (rnorm n e x g b k : EReal) := by
  unfold normOne rnorm
  rw [mean_coe n hn.ne' x]
  simp only [← EReal.coe_sub, ← EReal.coe_mul]
  rw [← coe_sum, div_real _ _ hn.ne', ← EReal.coe_sub, ← var_eq n hc hn.ne' x, ← EReal.coe_add,
    rsqrt_real _ (add_pos_of_nonneg_of_pos (var_nonneg n hn x) he), ← EReal.coe_mul, ← EReal.coe_mul, ← EReal.coe_add]

theorem affine_coe (x : ι → ℝ) (W : κ → ι → ℝ) (c : κ → ℝ) (p : κ) :
    affine (fun k => (x k : EReal)) (fun p k => (W p k : EReal)) (fun p => (c p : EReal)) p = (raffine x W c p : EReal) := by
  unfold affine raffine
  simp only [← EReal.coe_mul]
  rw [← coe_sum, ← EReal.coe_add]

/-! ## Normalise, project, normalise: the two arrangements agree on real data -/

/-- A function into the extended reals all of whose values are real is the coercion of a real function. -/
theorem exists_real {α : Type} (f : α → EReal) (h : ∀ a, ∃ r : ℝ, f a = (r : EReal)) :
    ∃ fr : α → ℝ, f = fun a => (fr a : EReal) := by
  choose fr hfr using h
  exact ⟨fr, funext hfr⟩

theorem norm_affine_norm (n1 n2 e : ℝ) (h1 : n1 = (Fintype.card ι : ℝ)) (h1' : 0 < n1)
    (h2 : n2 = (Fintype.card κ : ℝ)) (h2' : 0 < n2) (he : 0 < e)
    (x g1 b1 : ι → EReal) (W : κ → ι → EReal) (c g2 b2 : κ → EReal)
    (hx : ∀ k, ∃ r : ℝ, x k = (r : EReal)) (hg1 : ∀ k, ∃ r : ℝ, g1 k = (r : EReal)) (hb1 : ∀ k, ∃ r : ℝ, b1 k = (r : EReal))
    (hW : ∀ p k, ∃ r : ℝ, W p k = (r : EReal)) (hc : ∀ p, ∃ r : ℝ, c p = (r : EReal))
    (hg2 : ∀ p, ∃ r : ℝ, g2 p = (r : EReal)) (hb2 : ∀ p, ∃ r : ℝ, b2 p = (r : EReal)) (p : κ) :
    normOne (n2 : EReal) (e : EReal) (affine (normOne (n1 : EReal) (e : EReal) x g1 b1) W c) g2 b2 p
      = normTwo (n2 : EReal) (e : EReal) (affine (normTwo (n1 : EReal) (e : EReal) x g1 b1) W c) g2 b2 p := by
  obtain ⟨xr, rfl⟩ := exists_real x hx
  obtain ⟨g1r, rfl⟩ := exists_real g1 hg1
  obtain ⟨b1r, rfl⟩ := exists_real b1 hb1
  obtain ⟨cr, rfl⟩ := exists_real c hc
  obtain ⟨g2r, rfl⟩ := exists_real g2 hg2
  obtain ⟨b2r, rfl⟩ := exists_real b2 hb2
  obtain ⟨Wr, hWr⟩ : ∃ Wr : κ → ι → ℝ, W = fun p k => (Wr p k : EReal) := by
    choose Wr hWr using hW
    exact ⟨Wr, funext fun p => funext fun k => hWr p k⟩
  subst hWr
  have e1 : normOne (n1 : EReal) (e : EReal) (fun j => (xr j : EReal)) (fun j => (g1r j : EReal)) (fun j => (b1r j : EReal))
      = fun k => (rnorm n1 e xr g1r b1r k : EReal) := funext fun k => normOne_coe n1 e h1 h1' he xr g1r b1r k
  have e2 : normTwo (n1 : EReal) (e : EReal) (fun j => (xr j : EReal)) (fun j => (g1r j : EReal)) (fun j => (b1r j : EReal))
      = fun k => (rnorm n1 e xr g1r b1r k : EReal) := funext fun k => normTwo_coe n1 e h1' he xr g1r b1r k
  rw [e1, e2]
  have e3 : affine (fun k => (rnorm n1 e xr g1r b1r k : EReal)) (fun p k => (Wr p k : EReal)) (fun p => (cr p : EReal))
      = fun p => (raffine (rnorm n1 e xr g1r b1r) Wr cr p : EReal) := funext fun p => affine_coe _ Wr cr p
  rw [e3, normOne_coe n2 e h2 h2' he, normTwo_coe n2 e h2' he]

end Cert.RowNorm

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibBlockNorm.lean ====
/-
  One layer normalisation of a block of rows, as the vector unit computes it, read at an entry.

  The block is an [a, b] array of a rows. The row sums of the block and of its squares (lane reductions) are kept
  as [a, 1] columns, divided by the row length, combined into the one-pass variance, offset, passed through the
  reciprocal square root, spread back over the lanes, and the block is centred, scaled by that column and by a
  gain row, and shifted by a bias row. Read at (r, k) this is the one-pass normalisation of row r, at k.
-/
import proofs.«131918_j17575006175537_2_alg».proof.Proof.LibRowNorm
import proofs.«131918_j17575006175537_2_alg».proof.Proof.LibLane
import proofs.«131918_j17575006175537_2_alg».proof.Proof.LibIndexRead
import Idealize.ShloMosaic.Lib.ValueIdx
import Idealize.ShloMosaic.Lib.ValueLayout

noncomputable section

namespace Cert.BlockNorm

open Idealize.ShloMosaic Idealize.ShloMosaic.ValueIdx Idealize.ShloMosaic.RowRead Cert.RowNorm Cert.LibLane

theorem rsqrt_apply {s : Shape} {φ : FTy} (v : FVec Ideal s φ) (i : s.Idx) : rsqrt v i = Ideal.rsqrt (v i) := rfl

/-- The column of row sums of a block, over the row length: at row r the mean of row r. -/
abbrev meanCol {a b : ℕ} (v : FVec Ideal ⟨2, ![a, b]⟩ .f32) (cN : Ideal .f32)
    (hr : Shape.Reduces ⟨2, ![a, b]⟩ [1] ⟨1, ![a]⟩) (hφ : FKind.Formats .f32) (hacc : (0x00000000#32 : BitVec 32) = 0x00000000#32)
    (hc : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 hr hφ hacc) hc) (broadcast ⟨2, ![a, 1]⟩ cN)

theorem meanCol_apply {a b : ℕ} (v : FVec Ideal ⟨2, ![a, b]⟩ .f32) (cN : Ideal .f32)
    (hr : Shape.Reduces ⟨2, ![a, b]⟩ [1] ⟨1, ![a]⟩) (hφ : FKind.Formats .f32) (hacc : (0x00000000#32 : BitVec 32) = 0x00000000#32)
    (hc : (⟨1, ![a]⟩ : Shape).ShapeCasts ⟨2, ![a, 1]⟩) (r : Fin a) (u : Fin 1) :
    meanCol v cN hr hφ hacc hc (ix2 r u) = Ideal.div (∑ j : Fin b, v (ix2 r j)) cN := by
  show Ideal.div (shapeCast ⟨2, ![a, 1]⟩ (multiReduction .add [1] ⟨1, ![a]⟩ v 0x00000000#32 hr hφ hacc) hc (ix2 r u)) cN = _
  rw [shapeCast_a_a1_apply, laneSum_apply]

/-- The block normalised in one pass, as the vector operations spell it, read at (r, k). -/
theorem blockNorm_apply {a b : ℕ} (v : FVec Ideal ⟨2, ![a, b]⟩ .f32) (g bb : FVec Ideal ⟨1, ![b]⟩ .f32) (cN ce : Ideal .f32)
    (hr : Shape.Reduces ⟨2, ![a, b]⟩ [1] ⟨1, ![a]⟩) (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (hc' : (⟨1, ![b]⟩ : Shape).ShapeCasts ⟨2, ![1, b]⟩) (hb' : (⟨2, ![1, b]⟩ : Shape).Broadcasts ⟨2, ![a, b]⟩)
    (r : Fin a) (k : Fin b) :
    addf (mulf (mulf (subf v (broadcastTo ⟨2, ![a, b]⟩ (meanCol v cN hr hφ hacc hc) hb))
        (broadcastTo ⟨2, ![a, b]⟩ (rsqrt (addf (subf (meanCol (mulf v v) cN hr hφ hacc hc)
          (mulf (meanCol v cN hr hφ hacc hc) (meanCol v cN hr hφ hacc hc))) (broadcast ⟨2, ![a, 1]⟩ ce))) hb))
        (broadcastTo ⟨2, ![a, b]⟩ (shapeCast ⟨2, ![1, b]⟩ g hc') hb'))
      (broadcastTo ⟨2, ![a, b]⟩ (shapeCast ⟨2, ![1, b]⟩ bb hc') hb') (ix2 r k)
      = normOne cN ce (fun j => v (ix2 r j)) (fun j => g (ix1 j)) (fun j => bb (ix1 j)) k := by
  rw [addf_apply, mulf_apply, mulf_apply, subf_apply, broadcastTo_a1_ab_apply, broadcastTo_a1_ab_apply,
    broadcastTo_1b_ab_apply, broadcastTo_1b_ab_apply, shapeCast_a_1a_apply, shapeCast_a_1a_apply, rsqrt_apply,
    addf_apply, subf_apply, mulf_apply, broadcast_apply, meanCol_apply, meanCol_apply]
  rfl

end Cert.BlockNorm

end
-- ==== Proof.Consts.lean ====
/-
  The float constants the two programs spell, as the extended reals their patterns denote: the row lengths
  1024 and 256 (the divisors of the means), the variance offset (a positive real), and zero.
-/
import Idealize.ShloMosaic.PureOps.Ideal

noncomputable section

namespace Cert.Consts

open Idealize.ShloMosaic

/-- The pattern `0x44800000` denotes the real 1024, the length of a row of the input. -/
theorem ofBits_1024 : Ideal.ofBits .f32 0x44800000#32 = ((1024 : ℝ) : EReal) := by
  simp [Ideal.ofBits, Ideal.ieee, -EReal.coe_mul] <;> norm_num

/-- The pattern `0x43800000` denotes the real 256, the length of a row of the projection. -/
theorem ofBits_256 : Ideal.ofBits .f32 0x43800000#32 = ((256 : ℝ) : EReal) := by
  simp [Ideal.ofBits, Ideal.ieee, -EReal.coe_mul] <;> norm_num

/-- The variance offset's pattern `0x3727C5AC` denotes a positive real (the dyadic nearest 1e-5). -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul] <;> norm_num

end Cert.Consts

end
-- ==== Proof.Spec.lean ====
/-
  The function both programs compute: for a [65536, 1024] input x, gain and bias rows g₁, b₁ of length 1024, a
  [256, 1024] weight W, a bias row c and gain and bias rows g₂, b₂ of length 256, the entry (n, p) of the result
  is the normalisation, at p, of the row  q ↦ ∑ₖ norm(xₙ)ₖ · W(q, k) + c(q),  where norm(xₙ) is the
  normalisation of row n of x. The kernel takes both variances in one pass, the reference in two; on finite
  data the two are one function.
-/
import proofs.«131918_j17575006175537_2_alg».proof.Proof.LibRowNorm
import proofs.«131918_j17575006175537_2_alg».proof.Proof.Consts
import Idealize.ShloMosaic.Lib.ValueIdx

noncomputable section

namespace Cert.Spec

open Idealize.ShloMosaic Idealize.ShloMosaic.ValueIdx Cert.RowNorm

/-- The row lengths and the variance offset, as both programs spell them. -/
abbrev len1 : EReal := Ideal.ofBits .f32 0x44800000#32
abbrev len2 : EReal := Ideal.ofBits .f32 0x43800000#32
abbrev eps : EReal := Ideal.ofBits .f32 0x3727C5AC#32

abbrev A2 (a b : ℕ) : Type := (⟨2, ![a, b]⟩ : Shape).Idx → EReal
abbrev A1 (a : ℕ) : Type := (⟨1, ![a]⟩ : Shape).Idx → EReal

/-- One row through the whole pipeline in the one-pass arrangement: normalise, project, normalise, read at p. -/
def rowOne (xrow g1 b1 : Fin 1024 → EReal) (W : Fin 256 → Fin 1024 → EReal) (c g2 b2 : Fin 256 → EReal) (p : Fin 256) : EReal :=
  normOne len2 eps (affine (normOne len1 eps xrow g1 b1) W c) g2 b2 p

/-- It depends on its data entry by entry. -/
theorem rowOne_congr {xrow xrow' g1 g1' b1 b1' : Fin 1024 → EReal} {W W' : Fin 256 → Fin 1024 → EReal}
    {c c' g2 g2' b2 b2' : Fin 256 → EReal} {p p' : Fin 256}
    (hx : ∀ k, xrow k = xrow' k) (hg1 : ∀ k, g1 k = g1' k) (hb1 : ∀ k, b1 k = b1' k) (hW : ∀ q k, W q k = W' q k)
    (hc : ∀ q, c q = c' q) (hg2 : ∀ q, g2 q = g2' q) (hb2 : ∀ q, b2 q = b2' q) (hp : p = p') :
    rowOne xrow g1 b1 W c g2 b2 p = rowOne xrow' g1' b1' W' c' g2' b2' p' := by
  obtain rfl : xrow = xrow' := funext hx
  obtain rfl : g1 = g1' := funext hg1
  obtain rfl : b1 = b1' := funext hb1
  obtain rfl : W = W' := funext fun q => funext (hW q)
  obtain rfl : c = c' := funext hc
  obtain rfl : g2 = g2' := funext hg2
  obtain rfl : b2 = b2' := funext hb2
  subst hp
  rfl

/-- Entry (n, p) with both variances in one pass. -/
def mlpOne (x : A2 65536 1024) (g1 b1 : A1 1024) (W : A2 256 1024) (c g2 b2 : A1 256) (n : Fin 65536) (p : Fin 256) : EReal :=
  rowOne (fun k => x (ix2 n k)) (fun k => g1 (ix1 k)) (fun k => b1 (ix1 k))
    (fun q k => W (ix2 q k)) (fun q => c (ix1 q)) (fun q => g2 (ix1 q)) (fun q => b2 (ix1 q)) p

/-- Entry (n, p) with both variances in two passes. -/
def mlpTwo (x : A2 65536 1024) (g1 b1 : A1 1024) (W : A2 256 1024) (c g2 b2 : A1 256) (n : Fin 65536) (p : Fin 256) : EReal :=
  normTwo len2 eps
    (affine (normTwo len1 eps (fun k => x (ix2 n k)) (fun k => g1 (ix1 k)) (fun k => b1 (ix1 k)))
      (fun q k => W (ix2 q k)) (fun q => c (ix1 q)))
    (fun q => g2 (ix1 q)) (fun q => b2 (ix1 q)) p

/-- An array all of whose entries are real numbers. -/
def Real2 {a b : ℕ} (x : A2 a b) : Prop := ∀ i, ∃ r : ℝ, x i = (r : EReal)
def Real1 {a : ℕ} (x : A1 a) : Prop := ∀ i, ∃ r : ℝ, x i = (r : EReal)

/-- On real data the two arrangements agree, entry by entry. -/
theorem mlpOne_eq_mlpTwo (x : A2 65536 1024) (g1 b1 : A1 1024) (W : A2 256 1024) (c g2 b2 : A1 256)
    (hx : Real2 x) (hg1 : Real1 g1) (hb1 : Real1 b1) (hW : Real2 W) (hc : Real1 c) (hg2 : Real1 g2) (hb2 : Real1 b2)
    (n : Fin 65536) (p : Fin 256) :
    mlpOne x g1 b1 W c g2 b2 n p = mlpTwo x g1 b1 W c g2 b2 n p := by
  obtain ⟨e, he, hε⟩ := Cert.Consts.ofBits_eps
  unfold mlpOne rowOne mlpTwo len1 len2 eps
  rw [Cert.Consts.ofBits_1024, Cert.Consts.ofBits_256, hε]
  exact norm_affine_norm 1024 256 e (by simp) (by norm_num) (by simp) (by norm_num) he _ _ _ _ _ _ _
    (fun k => hx _) (fun k => hg1 _) (fun k => hb1 _) (fun q k => hW _) (fun q => hc _) (fun q => hg2 _) (fun q => hb2 _) p

end Cert.Spec

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.KernelBody.lean ====
/-
  What the kernel body stores for one block of 2048 rows, read at an entry.

  The body normalises each row of its [2048, 1024] input block in one pass (gain and bias rows of length 1024),
  multiplies the normalised block by the [1024, 256] weight block and adds the bias row, and normalises each row
  of that [2048, 256] product in one pass again (gain and bias rows of length 256). Read at (r, p), the stored
  block is the one-pass normalisation, at p, of the projected row r: the sum over k of the normalised input row
  at k times the weight at (k, p), plus the bias at p.
-/
import proofs.«131918_j17575006175537_2_alg».proof.Proof.Gen.KernelIdeal.Frame
import proofs.«131918_j17575006175537_2_alg».proof.Proof.LibBlockNorm
import proofs.«131918_j17575006175537_2_alg».proof.Proof.Spec
import proofs.«131918_j17575006175537_2_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Idealize.ShloMosaic.RowRead
open Cert.RowNorm Cert.BlockNorm Cert.Spec

/-- Row r of the first normalisation, of the input block x with gain g and bias b. -/
abbrev row1 (x : Vec Ideal S2048x1024 .f32) (g b : Vec Ideal S1024 .f32) (r : Fin 2048) : Fin 1024 → EReal :=
  normOne len1 eps (fun k => x (ix2 r k)) (fun k => g (ix1 k)) (fun k => b (ix1 k))

/-- Row r of the projection: the normalised row times the weight block, plus the bias row. -/
abbrev proj (x : Vec Ideal S2048x1024 .f32) (g b : Vec Ideal S1024 .f32) (w : Vec Ideal S1024x256 .bf16)
    (c : Vec Ideal S256 .f32) (r : Fin 2048) : Fin 256 → EReal :=
  affine (row1 x g b r) (fun p k => w (ix2 k p)) (fun p => c (ix1 p))

/-- The matrix product of the body, into the zero accumulator, at (r, p). -/
theorem matmul_apply (l : FVec Ideal S2048x1024 .bf16) (w : FVec Ideal S1024x256 .bf16) (r : Fin 2048) (p : Fin 256) :
    matmul dot_S2048x1024_S1024x256_S2048x256_1_0_0_1_n_n none l w (constant S2048x256 .f32 0x00000000#32) (ix2 r p)
      = ∑ k : Fin 1024, l (ix2 r k) * w (ix2 k p) :=
  PlainDot.matmul_plain _ rfl none l w r p

/-- The projected block at (r, p). -/
theorem pay2_apply (x : Vec Ideal S2048x1024 .f32) (g b : Vec Ideal S1024 .f32) (w : Vec Ideal S1024x256 .bf16)
    (c : Vec Ideal S256 .f32) (r : Fin 2048) (p : Fin 256) :
    k0_pay2 x g b w c (ix2 r p) = proj x g b w c r p := by
  unfold k0_pay2
  rw [addf_apply, shapeCast_self, matmul_apply, broadcastTo_1b_ab_apply, shapeCast_a_1a_apply]
  refine congrArg (· + c (ix1 p)) (Finset.sum_congr rfl fun k _ => congrArg (· * w (ix2 k p)) ?_)
  rw [truncf_apply]
  exact blockNorm_apply x g b _ _ _ _ _ _ _ _ _ r k

/-- The stored block at (r, p): the projected row r normalised in one pass, at p. -/
theorem pay1_apply (x : Vec Ideal S2048x1024 .f32) (g b : Vec Ideal S1024 .f32) (w : Vec Ideal S1024x256 .bf16)
    (c g' b' : Vec Ideal S256 .f32) (r : Fin 2048) (p : Fin 256) :
    k0_pay1 (k0_pay2 x g b w c) (k0_pay3 x g b w c) (k0_pay4 x g b w c) (Scalar.ofBits .f32 0x43800000#32) g' b' (ix2 r p)
      = normOne len2 eps (proj x g b w c r) (fun q => g' (ix1 q)) (fun q => b' (ix1 q)) p := by
  refine (blockNorm_apply (k0_pay2 x g b w c) g' b' _ _ _ _ _ _ _ _ _ r p).trans ?_
  exact congrArg (fun f => normOne len2 eps f (fun q => g' (ix1 q)) (fun q => b' (ix1 q)) p)
    (funext fun q => pay2_apply x g b w c r q)

theorem zeros2 : (![0, 0] : Fin 2 → Nat) = fun _ => 0 := funext fun a => by fin_cases a <;> rfl
theorem zeros1 : (![0] : Fin 1 → Nat) = fun _ => 0 := funext fun a => by fin_cases a <;> rfl

/-- What the body leaves in the output block, from the input blocks, at (r, p). -/
theorem out_apply (x : Vec Ideal S2048x1024 .f32) (g b : Vec Ideal S1024 .f32) (w : Vec Ideal S1024x256 .bf16)
    (c g' b' : Vec Ideal S256 .f32) (r : Fin 2048) (p : Fin 256) :
    out0_7 x g b w c g' b' (ix2 r p)
      = normOne len2 eps (proj x g b w c r) (fun q => g' (ix1 q)) (fun q => b' (ix1 q)) p := by
  unfold out0_7
  rw [View.canon_unit_zero zeros2]
  simp only [View.ld_unit_zero (S := S2048x1024) zeros2, View.ld_unit_zero (S := S1024x256) zeros2,
    View.ld_unit_zero (S := S1024) zeros1, View.ld_unit_zero (S := S256) zeros1]
  exact pay1_apply x g b w c g' b' r p

/-- The same, as one row through the one-pass pipeline. -/
theorem out_row (x : Vec Ideal S2048x1024 .f32) (g b : Vec Ideal S1024 .f32) (w : Vec Ideal S1024x256 .bf16)
    (c g' b' : Vec Ideal S256 .f32) (r : Fin 2048) (p : Fin 256) :
    out0_7 x g b w c g' b' (ix2 r p)
      = rowOne (fun k => x (ix2 r k)) (fun k => g (ix1 k)) (fun k => b (ix1 k)) (fun q k => w (ix2 k q))
          (fun q => c (ix1 q)) (fun q => g' (ix1 q)) (fun q => b' (ix1 q)) p :=
  out_apply x g b w c g' b' r p

end Cert.KernelIdeal.Body

end
-- ==== Proof.KernelValue.lean ====
/-
  The kernel's result array after the run: the one-pass specification of the arguments, entry by entry.

  Grid point t handles rows 2048·t … 2048·t + 2047: its input block is those rows of the input, its output block
  those rows of the result; the gain, bias and weight windows are the whole of their arrays at every point, and the
  weight the region finds is the transposed weight argument. So what point t writes back is block t of the
  specification, and the 32 blocks tile the 65536 rows.
-/
import proofs.«131918_j17575006175537_2_alg».proof.Proof.Gen.KernelIdeal.Value
import proofs.«131918_j17575006175537_2_alg».proof.Proof.KernelBody
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.RowNorm Cert.Spec Cert.KernelIdeal.Body

variable (m : (ℓ : Loc nD τ sig) → Buf (Elt Ideal) ℓ) (ρ : Dev nD → PrngReg)

/-- The specification of the argument arrays as launched. -/
def result (c : Dev nD) : S65536x256.Idx → EReal := fun i =>
  mlpOne (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The block indices over the grid: the input and output blocks move together along the rows, one block per
    point; every other block index is zero. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) ≤ 31 :=
  (by decide +kernel : ∀ t : Fin grid0.N, _)

/-- Every block of rows is some point's. -/
theorem idx_onto : ∀ q : Fin 32, ∃ t : Fin cfg0.N, win0_7.index t = ![q.val, 0] :=
  (by decide +kernel : ∀ q : Fin 32, ∃ t : Fin grid0.N, win0_7.index t = ![q.val, 0])

/-- The weight window's array as the region finds it: the weight argument transposed (the change of format is the
    identity on the extended reals). -/
theorem V_weight (c : Dev nD) :
    (V m c main_v1 : S1024x256.Idx → EReal)
      = (truncf (F := Ideal) .bf16 (transpose S1024x256 [1, 0] (m ((c : Thread nD τ).loc main_arg3)) transposes_S256x1024_S1024x256_1_0) bitsLt_bf16_f32 : S1024x256.Idx → EReal) := by
  dsimp only [Gen.V, Gen.hostOps0]; after_results <;> rfl

/-! ## The input blocks, read where the output block's rows are -/

theorem read_x (c : Dev nD) (t : Fin cfg0.N) (r : Fin 2048) (k : Fin 1024) (i : S65536x1024.Idx)
    (h0 : (i 0).val = win0_7.index t (0 : Fin 2) * 2048 + r.val) (h1 : (i 1).val = k.val) :
    iblk m c 0 t (ix2 r k) = m ((c : Thread nD τ).loc main_arg0) i := by
  show V m c main_arg0 (((cfg0.win 0).blk t).view.emb (ix2 r k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 2048 + 1 * r.val = (i 0).val; omega
  | ⟨1, _⟩ => show win0_0.index t (1 : Fin 2) * 1024 + 1 * k.val = (i 1).val; omega

theorem read_g1 (c : Dev nD) (t : Fin cfg0.N) (k : Fin 1024) :
    iblk m c 1 t (ix1 k) = m ((c : Thread nD τ).loc main_arg1) (ix1 k) := by
  show V m c main_arg1 (((cfg0.win 1).blk t).view.emb (ix1 k)) = _
  rw [V_main_arg1]
  refine congrArg (m ((c : Thread nD τ).loc main_arg1)) (funext fun a => Fin.ext ?_)
  obtain ⟨-, -, -, e3, -⟩ := idx_facts t
  match a with
  | ⟨0, _⟩ => show win0_1.index t (0 : Fin 1) * 1024 + 1 * k.val = k.val; omega

theorem read_b1 (c : Dev nD) (t : Fin cfg0.N) (k : Fin 1024) :
    iblk m c 2 t (ix1 k) = m ((c : Thread nD τ).loc main_arg2) (ix1 k) := by
  show V m c main_arg2 (((cfg0.win 2).blk t).view.emb (ix1 k)) = _
  rw [V_main_arg2]
  refine congrArg (m ((c : Thread nD τ).loc main_arg2)) (funext fun a => Fin.ext ?_)
  obtain ⟨-, -, -, -, e4, -⟩ := idx_facts t
  match a with
  | ⟨0, _⟩ => show win0_2.index t (0 : Fin 1) * 1024 + 1 * k.val = k.val; omega

theorem read_w (c : Dev nD) (t : Fin cfg0.N) (k : Fin 1024) (q : Fin 256) :
    iblk m c 3 t (ix2 k q) = m ((c : Thread nD τ).loc main_arg3) (ix2 q k) := by
  show (V m c main_v1 : S1024x256.Idx → EReal) (((cfg0.win 3).blk t).view.emb (ix2 k q)) = _
  rw [V_weight]
  have e : ((cfg0.win 3).blk t).view.emb (ix2 k q) = ix2 k q := by
    funext a; apply Fin.ext
    obtain ⟨-, -, -, -, -, e5, e6, -⟩ := idx_facts t
    match a with
    | ⟨0, _⟩ => show win0_3.index t (0 : Fin 2) * 1024 + 1 * k.val = k.val; omega
    | ⟨1, _⟩ => show win0_3.index t (1 : Fin 2) * 256 + 1 * q.val = q.val; omega
  rw [e, truncf_apply, transpose_ix2_apply]

theorem read_c (c : Dev nD) (t : Fin cfg0.N) (q : Fin 256) :
    iblk m c 4 t (ix1 q) = m ((c : Thread nD τ).loc main_arg4) (ix1 q) := by
  show V m c main_arg4 (((cfg0.win 4).blk t).view.emb (ix1 q)) = _
  rw [V_main_arg4]
  refine congrArg (m ((c : Thread nD τ).loc main_arg4)) (funext fun a => Fin.ext ?_)
  obtain ⟨-, -, -, -, -, -, -, e7, -⟩ := idx_facts t
  match a with
  | ⟨0, _⟩ => show win0_4.index t (0 : Fin 1) * 256 + 1 * q.val = q.val; omega

theorem read_g2 (c : Dev nD) (t : Fin cfg0.N) (q : Fin 256) :
    iblk m c 5 t (ix1 q) = m ((c : Thread nD τ).loc main_arg5) (ix1 q) := by
  show V m c main_arg5 (((cfg0.win 5).blk t).view.emb (ix1 q)) = _
  rw [V_main_arg5]
  refine congrArg (m ((c : Thread nD τ).loc main_arg5)) (funext fun a => Fin.ext ?_)
  obtain ⟨-, -, -, -, -, -, -, -, e8, -⟩ := idx_facts t
  match a with
  | ⟨0, _⟩ => show win0_5.index t (0 : Fin 1) * 256 + 1 * q.val = q.val; omega

theorem read_b2 (c : Dev nD) (t : Fin cfg0.N) (q : Fin 256) :
    iblk m c 6 t (ix1 q) = m ((c : Thread nD τ).loc main_arg6) (ix1 q) := by
  show V m c main_arg6 (((cfg0.win 6).blk t).view.emb (ix1 q)) = _
  rw [V_main_arg6]
  refine congrArg (m ((c : Thread nD τ).loc main_arg6)) (funext fun a => Fin.ext ?_)
  obtain ⟨-, -, -, -, -, -, -, -, -, e9, -⟩ := idx_facts t
  match a with
  | ⟨0, _⟩ => show win0_6.index t (0 : Fin 1) * 256 + 1 * q.val = q.val; omega

/-! ## What a point writes back, the cover, the array -/

/-- Point t writes back block t of the specification. -/
theorem flushed_eq (c : Dev nD) (t : Fin cfg0.N) :
    (dats m 0 c).flushed 7 t = ((cfg0.win 7).blk t).view.read (Elt Ideal) (result m c) := by
  rw [Value.flushed7]
  funext j
  show out0_7 (iblk m c 0 t) (iblk m c 1 t) (iblk m c 2 t) (iblk m c 3 t) (iblk m c 4 t) (iblk m c 5 t) (iblk m c 6 t) j
    = result m c (((cfg0.win 7).blk t).view.emb j)
  refine (congrArg (out0_7 (iblk m c 0 t) (iblk m c 1 t) (iblk m c 2 t) (iblk m c 3 t) (iblk m c 4 t) (iblk m c 5 t) (iblk m c 6 t)) (eq_ix2 j)).trans ?_
  refine (out_row (iblk m c 0 t) (iblk m c 1 t) (iblk m c 2 t) (iblk m c 3 t) (iblk m c 4 t) (iblk m c 5 t) (iblk m c 6 t) (j 0) (j 1)).trans ?_
  unfold result mlpOne
  obtain ⟨-, -, e2, -⟩ := idx_facts t
  refine rowOne_congr (fun k => read_x m c t (j 0) k _ ?_ rfl) (fun k => read_g1 m c t k) (fun k => read_b1 m c t k)
    (fun q k => read_w m c t k q) (fun q => read_c m c t q) (fun q => read_g2 m c t q) (fun q => read_b2 m c t q) (Fin.ext ?_)
  · show win0_7.index t (0 : Fin 2) * 2048 + 1 * (j 0).val = win0_7.index t (0 : Fin 2) * 2048 + (j 0).val
    omega
  · show (j 1).val = win0_7.index t (1 : Fin 2) * 256 + 1 * (j 1).val
    omega

/-- An index is in point t's block iff each coordinate is in the block's range. -/
theorem mem_blk (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v2).slice (win0_7.rect t)).set ↔ _
  rw [View.set_slice_whole, Rect.mem_set_unit]
  exact Iff.rfl

/-- Every entry of the result is in some point's block: the point of its row's block of 2048. -/
theorem cover (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ := idx_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-- The result array after the run is the specification. -/
theorem final (c : Dev nD) : (dats m 0 c).arrAt 7 cfg0.N = result m c :=
  (dats m 0 c).arrAt_eq_of_cover 7 (result m c) (fun t _ => flushed_eq m c t) cover

/-- The kernel's run: it ends with the result at the specification and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KValue

end
-- ==== Proof.RefValue.lean ====
/-
  The reference program's result, read at an entry (n, p): the two-pass arrangement of the specification.

  The host program computes, for each row n of the input, the mean (a sum over the row, over 1024), the mean of the
  squared deviations, the reciprocal root of that plus the offset, and the normalised row with gain and bias; then
  the product with the weight contracted along the row plus the bias; then the same normalisation of each row of
  256 entries. Each stage is read at coordinates (n, ·) from the stage before it.
-/
import proofs.«131918_j17575006175537_2_alg».proof.Proof.Gen.ReferenceIdeal.Read
import proofs.«131918_j17575006175537_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.RowNorm Cert.Spec

macro "idx_two" : tactic => `(tactic| (funext a; match a with | ⟨0, _⟩ => rfl | ⟨1, _⟩ => rfl))
macro "idx_one" : tactic => `(tactic| (funext a; match a with | ⟨0, _⟩ => rfl))

variable (x0 : (⟨S65536x1024, .f32⟩ : BufTy).Contents (Elt Ideal)) (x1 x2 : (⟨S1024, .f32⟩ : BufTy).Contents (Elt Ideal))
  (x3 : (⟨S256x1024, .f32⟩ : BufTy).Contents (Elt Ideal)) (x4 x5 x6 : (⟨S256, .f32⟩ : BufTy).Contents (Elt Ideal))

/-! ## The first normalisation -/

/-- The mean of row n of the input. -/
theorem mean1 (n : Fin 65536) (u : Fin 1) :
    val_main_v3 (F := Ideal) x0 (ix2 n u) = mean len1 (fun k => x0 (ix2 n k)) := by
  rw [val_main_v3_apply, val_main_v1_apply, val_main_v0_apply, val_main_v2_apply, val_main_cst_0_apply, val_main_cst_apply]
  show Ideal.div (Ideal.ofBits .f32 0x00000000#32 + ∑ k : Fin 1024, x0 (idx_main_v0 (idx_main_v1 (ix2 n u)) k)) len1 = _
  rw [Ideal.ofBits_zero_f32, zero_add]
  exact congrArg (Ideal.div · len1) (Finset.sum_congr rfl fun k _ => congrArg x0 (by idx_two))

/-- The deviation of entry (n, k) from its row's mean. -/
theorem dev1 (n : Fin 65536) (k : Fin 1024) :
    val_main_v5 (F := Ideal) x0 (ix2 n k) = x0 (ix2 n k) - mean len1 (fun k => x0 (ix2 n k)) := by
  rw [val_main_v5_apply, val_main_v4_apply, show idx_main_v4 (ix2 n k) = ix2 n (0 : Fin 1) from by idx_two, mean1]
  rfl

/-- The mean squared deviation of row n. -/
theorem var1 (n : Fin 65536) (u : Fin 1) :
    val_main_v10 (F := Ideal) x0 (ix2 n u)
      = Ideal.div (∑ k : Fin 1024, (x0 (ix2 n k) - mean len1 (fun k => x0 (ix2 n k))) * (x0 (ix2 n k) - mean len1 (fun k => x0 (ix2 n k)))) len1 := by
  rw [val_main_v10_apply, val_main_v8_apply, val_main_v7_apply, val_main_v9_apply, val_main_cst_2_apply, val_main_cst_1_apply]
  show Ideal.div (Ideal.ofBits .f32 0x00000000#32 + ∑ k : Fin 1024, val_main_v6 (F := Ideal) x0 (idx_main_v7 (idx_main_v8 (ix2 n u)) k)) len1 = _
  rw [Ideal.ofBits_zero_f32, zero_add]
  refine congrArg (Ideal.div · len1) (Finset.sum_congr rfl fun k _ => ?_)
  rw [show idx_main_v7 (idx_main_v8 (ix2 n u)) k = ix2 n k from by idx_two, val_main_v6_apply, dev1]
  rfl

/-- The reciprocal root of row n's variance plus the offset. -/
theorem inv1 (n : Fin 65536) (u : Fin 1) :
    val_main_v15 (F := Ideal) x0 (ix2 n u)
      = Ideal.rsqrt (Ideal.div (∑ k : Fin 1024, (x0 (ix2 n k) - mean len1 (fun k => x0 (ix2 n k))) * (x0 (ix2 n k) - mean len1 (fun k => x0 (ix2 n k)))) len1 + eps) := by
  rw [val_main_v15_apply, val_main_v14_apply, var1, val_main_v13_apply, val_main_cst_3_apply]
  rfl

/-- The normalised row n at k. -/
theorem norm1 (n : Fin 65536) (k : Fin 1024) :
    val_main_v23 (F := Ideal) x0 x1 x2 (ix2 n k)
      = normTwo len1 eps (fun k => x0 (ix2 n k)) (fun k => x1 (ix1 k)) (fun k => x2 (ix1 k)) k := by
  rw [val_main_v23_apply, val_main_v20_apply, val_main_v17_apply, val_main_v12_apply, val_main_v11_apply, val_main_v16_apply,
    val_main_v19_apply, val_main_v18_apply, val_main_v22_apply, val_main_v21_apply,
    show idx_main_v11 (ix2 n k) = ix2 n (0 : Fin 1) from by idx_two,
    show idx_main_v16 (ix2 n k) = ix2 n (0 : Fin 1) from by idx_two,
    show idx_main_v18 (idx_main_v19 (ix2 n k)) = ix1 k from by idx_one,
    show idx_main_v21 (idx_main_v22 (ix2 n k)) = ix1 k from by idx_one, mean1, inv1]
  rfl

/-! ## The projection -/

/-- Row n of the projection at q: the normalised row contracted with row q of the weight, plus the bias. -/
theorem proj (n : Fin 65536) (q : Fin 256) :
    val_main_v27 (F := Ideal) x0 x1 x2 x3 x4 (ix2 n q)
      = affine (normTwo len1 eps (fun k => x0 (ix2 n k)) (fun k => x1 (ix1 k)) (fun k => x2 (ix1 k)))
          (fun q k => x3 (ix2 q k)) (fun q => x4 (ix1 q)) q := by
  rw [val_main_v27_apply, val_main_v24_apply, val_main_v26_apply, val_main_v25_apply,
    show idx_main_v25 (idx_main_v26 (ix2 n q)) = ix1 q from by idx_one]
  refine congrArg (· + x4 (ix1 q)) (Finset.sum_congr rfl fun k _ => ?_)
  rw [show lidx_main_v24 (ix2 n q) k = ix2 n k from by idx_two, show ridx_main_v24 (ix2 n q) k = ix2 q k from by idx_two, norm1]

/-! ## The second normalisation -/

theorem mean2 (n : Fin 65536) (u : Fin 1) :
    val_main_v31 (F := Ideal) x0 x1 x2 x3 x4 (ix2 n u) = mean len2 (fun q => val_main_v27 (F := Ideal) x0 x1 x2 x3 x4 (ix2 n q)) := by
  rw [val_main_v31_apply, val_main_v29_apply, val_main_v28_apply, val_main_v30_apply, val_main_cst_5_apply, val_main_cst_4_apply]
  show Ideal.div (Ideal.ofBits .f32 0x00000000#32 + ∑ k : Fin 256, val_main_v27 (F := Ideal) x0 x1 x2 x3 x4 (idx_main_v28 (idx_main_v29 (ix2 n u)) k)) len2 = _
  rw [Ideal.ofBits_zero_f32, zero_add]
  exact congrArg (Ideal.div · len2) (Finset.sum_congr rfl fun k _ => congrArg (val_main_v27 (F := Ideal) x0 x1 x2 x3 x4) (by idx_two))

theorem dev2 (n : Fin 65536) (q : Fin 256) :
    val_main_v33 (F := Ideal) x0 x1 x2 x3 x4 (ix2 n q)
      = val_main_v27 (F := Ideal) x0 x1 x2 x3 x4 (ix2 n q) - mean len2 (fun q => val_main_v27 (F := Ideal) x0 x1 x2 x3 x4 (ix2 n q)) := by
  rw [val_main_v33_apply, val_main_v32_apply, show idx_main_v32 (ix2 n q) = ix2 n (0 : Fin 1) from by idx_two, mean2]
  rfl

theorem var2 (n : Fin 65536) (u : Fin 1) :
    val_main_v38 (F := Ideal) x0 x1 x2 x3 x4 (ix2 n u)
      = Ideal.div (∑ q : Fin 256, (val_main_v27 (F := Ideal) x0 x1 x2 x3 x4 (ix2 n q) - mean len2 (fun q => val_main_v27 (F := Ideal) x0 x1 x2 x3 x4 (ix2 n q)))
          * (val_main_v27 (F := Ideal) x0 x1 x2 x3 x4 (ix2 n q) - mean len2 (fun q => val_main_v27 (F := Ideal) x0 x1 x2 x3 x4 (ix2 n q)))) len2 := by
  rw [val_main_v38_apply, val_main_v36_apply, val_main_v35_apply, val_main_v37_apply, val_main_cst_7_apply, val_main_cst_6_apply]
  show Ideal.div (Ideal.ofBits .f32 0x00000000#32 + ∑ k : Fin 256, val_main_v34 (F := Ideal) x0 x1 x2 x3 x4 (idx_main_v35 (idx_main_v36 (ix2 n u)) k)) len2 = _
  rw [Ideal.ofBits_zero_f32, zero_add]
  refine congrArg (Ideal.div · len2) (Finset.sum_congr rfl fun k _ => ?_)
  rw [show idx_main_v35 (idx_main_v36 (ix2 n u)) k = ix2 n k from by idx_two, val_main_v34_apply, dev2]
  rfl

theorem inv2 (n : Fin 65536) (u : Fin 1) :
    val_main_v43 (F := Ideal) x0 x1 x2 x3 x4 (ix2 n u)
      = Ideal.rsqrt (Ideal.div (∑ q : Fin 256, (val_main_v27 (F := Ideal) x0 x1 x2 x3 x4 (ix2 n q) - mean len2 (fun q => val_main_v27 (F := Ideal) x0 x1 x2 x3 x4 (ix2 n q)))
          * (val_main_v27 (F := Ideal) x0 x1 x2 x3 x4 (ix2 n q) - mean len2 (fun q => val_main_v27 (F := Ideal) x0 x1 x2 x3 x4 (ix2 n q)))) len2 + eps) := by
  rw [val_main_v43_apply, val_main_v42_apply, var2, val_main_v41_apply, val_main_cst_8_apply]
  rfl

/-- The result at (n, p): the projected row n normalised in two passes, at p. -/
theorem norm2 (n : Fin 65536) (p : Fin 256) :
    val_main_v51 (F := Ideal) x0 x1 x2 x3 x4 x5 x6 (ix2 n p)
      = normTwo len2 eps (fun q => val_main_v27 (F := Ideal) x0 x1 x2 x3 x4 (ix2 n q)) (fun q => x5 (ix1 q)) (fun q => x6 (ix1 q)) p := by
  rw [val_main_v51_apply, val_main_v48_apply, val_main_v45_apply, val_main_v40_apply, val_main_v39_apply, val_main_v44_apply,
    val_main_v47_apply, val_main_v46_apply, val_main_v50_apply, val_main_v49_apply,
    show idx_main_v39 (ix2 n p) = ix2 n (0 : Fin 1) from by idx_two,
    show idx_main_v44 (ix2 n p) = ix2 n (0 : Fin 1) from by idx_two,
    show idx_main_v46 (idx_main_v47 (ix2 n p)) = ix1 p from by idx_one,
    show idx_main_v49 (idx_main_v50 (ix2 n p)) = ix1 p from by idx_one, mean2, inv2]
  rfl

/-- The reference's result array, entry by entry, is the two-pass specification of the arguments. -/
theorem result_eq (i : S65536x256.Idx) :
    val_main_v51 (F := Ideal) x0 x1 x2 x3 x4 x5 x6 i = mlpTwo x0 x1 x2 x3 x4 x5 x6 (i 0) (i 1) := by
  obtain ⟨n, p, rfl⟩ : ∃ (n : Fin 65536) (p : Fin 256), i = ix2 n p := ⟨i 0, i 1, eq_ix2 i⟩
  rw [norm2]
  exact congrArg (fun f => normTwo len2 eps f (fun q => x5 (ix1 q)) (fun q => x6 (ix1 q)) p)
    (funext fun q => proj x0 x1 x2 x3 x4 n q)

end Cert.ReferenceIdeal.RefValue

end
-- ==== Proof.Finite.lean ====
/-
  What the precondition says: every entry of every argument array is a real number.

  The precondition is the conjunction, over the seven arguments, of "every entry has absolute value below +∞". On
  the extended reals the absolute value of x is max x (−x), which is +∞ exactly at the two infinities; so an entry
  that passes the test is a real number.
-/
import proofs.«131918_j17575006175537_2_alg».proof.Pre_finite_inputs
import proofs.«131918_j17575006175537_2_alg».proof.Proof.LibIndexRead
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hc
    simp [Ideal.cmp, hc] at h
  induction x using EReal.rec with
  | bot => simp at hlt
  | coe r => exact ⟨r, rfl⟩
  | top => simp at hlt

/-- One conjunct of the precondition: if the test holds of the whole array, every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) := by
  have e1 := Host.reduce_andi_all _ _ hr hu ValueIdx.ix0 e i
  rw [ValueIdx.cmpf_apply, RowRead.broadcastInDim_scalar_apply] at e1
  exact real_of_abs_lt (a i) e1

variable [Facts]

/-- The precondition gives real entries throughout. -/
theorem reals (a0 : FVec Ideal S65536x1024 .f32) (a1 a2 : FVec Ideal S1024 .f32) (a3 : FVec Ideal S256x1024 .f32)
    (a4 a5 a6 : FVec Ideal S256 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1] at h0
  obtain ⟨h1, r6⟩ := IntOp.andi_eq_one.1 (show IntOp.andi _ _ = 1#1 from h0)
  obtain ⟨h2, r5⟩ := IntOp.andi_eq_one.1 (show IntOp.andi _ _ = 1#1 from h1)
  obtain ⟨h3, r4⟩ := IntOp.andi_eq_one.1 (show IntOp.andi _ _ = 1#1 from h2)
  obtain ⟨h4, r3⟩ := IntOp.andi_eq_one.1 (show IntOp.andi _ _ = 1#1 from h3)
  obtain ⟨h5, r2⟩ := IntOp.andi_eq_one.1 (show IntOp.andi _ _ = 1#1 from h4)
  obtain ⟨r0, r1⟩ := IntOp.andi_eq_one.1 (show IntOp.andi _ _ = 1#1 from h5)
  exact ⟨all_real a0 _ _ _ r0, all_real a1 _ _ _ r1, all_real a2 _ _ _ r2, all_real a3 _ _ _ r3, all_real a4 _ _ _ r4,
    all_real a5 _ _ _ r5, all_real a6 _ _ _ r6⟩

end Cert.Finite

end
-- ==== Proof.lean ====
/-
  A fused LayerNorm → Linear → LayerNorm kernel against its jnp reference, on the extended reals.

  For an input x of 65536 rows of 1024 entries the kernel, one block of 2048 rows per grid point, normalises each
  row (mean μ = ∑x / 1024, variance taken in ONE pass as ∑x² / 1024 − μ², then (x − μ) · rsqrt(var + ε) · g₁ + b₁),
  multiplies by the transposed weight (a product contracted over the 1024 entries of the row) and adds the bias,
  and normalises each row of the 256 projected entries the same way. The reference does the same with each
  variance taken in TWO passes, as ∑(x − μ)² / n, and contracts with the weight as it is stored.

  Both frames of the kernel are the generated ones; the reference's frame is its generated run. The ideal pass
  rewrote nothing, so the idealised kernel is the kernel's own text. The algebraic claim: the kernel's result
  array is the one-pass specification of the arguments (Proof/KernelBody.lean reads the body at an entry,
  Proof/KernelValue.lean puts the 32 blocks together), the reference's is the two-pass specification
  (Proof/RefValue.lean), and the two specifications agree where every argument entry is a real number
  (Proof/LibRowNorm.lean: ∑(x − μ)² = ∑x² − n μ² when n is the number of entries; the variance is then non-negative,
  the offset ε is positive, so each reciprocal root is real and the argument repeats after the projection) — which
  is what the precondition says (Proof/Finite.lean).
-/
import proofs.«131918_j17575006175537_2_alg».proof.Defs
import proofs.«131918_j17575006175537_2_alg».proof.Proof.Gen.Kernel
import proofs.«131918_j17575006175537_2_alg».proof.Proof.Gen.Kernel.Frame
import proofs.«131918_j17575006175537_2_alg».proof.Proof.Gen.KernelIdeal
import proofs.«131918_j17575006175537_2_alg».proof.Proof.Gen.KernelIdeal.Frame
import proofs.«131918_j17575006175537_2_alg».proof.Proof.Gen.ReferenceIdeal
import proofs.«131918_j17575006175537_2_alg».proof.Proof.Gen.ReferenceIdeal.Run
import proofs.«131918_j17575006175537_2_alg».proof.Proof.Gen.Pre_finite_inputs
import proofs.«131918_j17575006175537_2_alg».proof.Proof.KernelValue
import proofs.«131918_j17575006175537_2_alg».proof.Proof.RefValue
import proofs.«131918_j17575006175537_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the one-pass specification of the kernel's arguments: the kernel by its run, the
    reference because its two-pass specification of the same (real) arguments is the same number at every entry. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v51_eq, a0, a1, a2, a3, a4, a5, a6]
  obtain ⟨r0, r1, r2, r3, r4, r5, r6⟩ := Cert.Finite.reals _ _ _ _ _ _ _ (hpre c)
  funext i
  exact (Cert.ReferenceIdeal.RefValue.result_eq _ _ _ _ _ _ _ i).trans
    (Cert.Spec.mlpOne_eq_mlpTwo _ _ _ _ _ _ _ r0 r1 r2 r3 r4 r5 r6 (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
